-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024 .f32) (main_arg5 : FVec F S4x1024x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024x1024 .f32 := Host.absf main_arg5
  let main_cst_8 : FVec F S_ .f32 := constant S_ .f32 0x7F800000#32
  let main_v25 : FVec F S4x1024x1024 .f32 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  main_v28

def fn {F : FTy → Type} [FloatOps F] (main_arg0 : FVec F S16384x1024 .f32) (main_arg1 : FVec F S16384x1024 .f32) (main_arg2 : FVec F S16384x1024 .f32) (main_arg3 : FVec F S4x1024x1024 .f32) (main_arg4 : FVec F S4x1024 .f32) (main_arg5 : FVec F S4x1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_v13 main_v16
-- ==== Kernel.lean ====
abbrev S16384x1024 : Shape := ⟨2, ![16384, 1024]⟩
abbrev S4x1024x1024 : Shape := ⟨3, ![4, 1024, 1024]⟩
abbrev S4x1024 : Shape := ⟨2, ![4, 1024]⟩
abbrev S4096x1024 : Shape := ⟨2, ![4096, 1024]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 14
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .bf16⟩
  | .hbm, ⟨10, _⟩ => ⟨S1x4096, .f32⟩
  | .hbm, ⟨11, _⟩ => ⟨S16384x1024, .f32⟩
  | .hbm, ⟨12, _⟩ => ⟨S16384x1024, .f32⟩
  | .hbm, ⟨13, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S4x1024x1024_S4096x1024 : S4x1024x1024.ShapeCasts S4096x1024
  bitsLt_bf16_f32 : FTy.bits .bf16 < FTy.bits .f32
  shapeCasts_S4x1024_S1x4096 : S4x1024.ShapeCasts S1x4096
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S16384x1024.size a
  hwx0_8 : ∀ i : grid0.Coords, EltTy.bits .f32 = 32 ∨ (Rect.block (s := S16384x1024) S256x1024.size (cc0_transform_8 i) (hinb0_8 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_2) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4x1024x1024 : Shape := ⟨3, ![4, 1024, 1024]⟩
abbrev S4x1024 : Shape := ⟨2, ![4, 1024]⟩
abbrev S16384x4x1024 : Shape := ⟨3, ![16384, 4, 1024]⟩
abbrev S1x4x1024 : Shape := ⟨3, ![1, 4, 1024]⟩
abbrev S16384x1x1024 : Shape := ⟨3, ![16384, 1, 1024]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S16384x4x1024, .f32⟩
  | .hbm, ⟨7, _⟩ => ⟨S16384x4x1024, .f32⟩
  | .hbm, ⟨8, _⟩ => ⟨S16384x4x1024, .f32⟩
  | .hbm, ⟨9, _⟩ => ⟨S1x4x1024, .f32⟩
  | .hbm, ⟨10, _⟩ => ⟨S16384x4x1024, .f32⟩
  | .hbm, ⟨11, _⟩ => ⟨S16384x4x1024, .f32⟩
  | .hbm, ⟨12, _⟩ => ⟨S16384x1x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1x1024, .f32⟩
  | .hbm, ⟨33, _⟩ => ⟨S16384x1024, .f32⟩
  | .hbm, ⟨34, _⟩ => ⟨S16384x1024, .f32⟩
  | .hbm, ⟨35, _⟩ => ⟨S16384x1x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  bcast_S4x1024_S1x4x1024_1_2 : S4x1024.BroadcastsInDim S1x4x1024 (![1, 2] : Fin 2 → Fin S1x4x1024.rank)
  bcast_S1x4x1024_S16384x4x1024_0_1_2 : S1x4x1024.BroadcastsInDim S16384x4x1024 (![0, 1, 2] : Fin 3 → Fin S16384x4x1024.rank)
  slices_S16384x4x1024_S16384x1x1024_0_0_0 : S16384x4x1024.Slices ![0, 0, 0] S16384x1x1024
  shapeCasts_S16384x1x1024_S16384x1024 : S16384x1x1024.ShapeCasts S16384x1024
  bcast_S_S16384x1024 : S_.BroadcastsInDim S16384x1024 (![] : Fin 0 → Fin S16384x1024.rank)
  slices_S16384x4x1024_S16384x1x1024_0_1_0 : S16384x4x1024.Slices ![0, 1, 0] S16384x1x1024
  slices_S16384x4x1024_S16384x1x1024_0_2_0 : S16384x4x1024.Slices ![0, 2, 0] S16384x1x1024
  slices_S16384x4x1024_S16384x1x1024_0_3_0 : S16384x4x1024.Slices ![0, 3, 0] S16384x1x1024
  dot_S16384x1024_S4x1024x1024_S16384x4x1024_1_2_0_01_n_n_wf : DotDims.WF S16384x1024 S4x1024x1024 S16384x4x1024 [1] [2] [0] [0, 1] [] []

variable [Facts₀]

def dot_S16384x1024_S4x1024x1024_S16384x4x1024_1_2_0_01_n_n : DotDims S16384x1024 S4x1024x1024 S16384x4x1024 where
  lhsContracting := [1]
  rhsContracting := [2]
  lhsNonContracting := [0]
  rhsNonContracting := [0, 1]
  lhsBatch := []
  rhsBatch := []
  wf := dot_S16384x1024_S4x1024x1024_S16384x4x1024_1_2_0_01_n_n_wf

class Facts : Prop extends Facts₀ where

variable [Facts]
-- ==== Proof.Cell.lean ====
/-
  The recurrent cell both programs compute, as functions on the extended reals.

  For a batch row `b`, a gate `g` (input, forget, candidate, output in this order) and a hidden unit `j`, the
  gate's pre-activation is
      pre b g j = (Σ_k x[b,k] · Wi[g,j,k]  +  Σ_k h[b,k] · Wh[g,j,k])  +  bi[g,j].
  The three results are
      o      = σ(pre · 3 ·)
      c'     = σ(pre · 1 ·) · c  +  σ(pre · 0 ·) · tanh(pre · 2 ·)
      h'     = o · tanh(c')
  with σ x = 1 / (1 + e^(-x)).  Nothing here mentions a program: the arrays are plain functions of indices.
-/
import Idealize.ShloMosaic.PureOps.Ideal
import Idealize.ShloMosaic.Lib.ValueIdx

noncomputable section

namespace Cert.Cell

open Idealize.ShloMosaic Idealize.ShloMosaic.ValueIdx

/-- Batch rows by features: the shape of `x`, `h`, `c` and of each result. -/
abbrev SRows : Shape := ⟨2, ![16384, 1024]⟩
/-- Gate by hidden unit by input feature: the shape of each weight array. -/
abbrev SGates : Shape := ⟨3, ![4, 1024, 1024]⟩
/-- Gate by hidden unit: the shape of the bias. -/
abbrev SBias : Shape := ⟨2, ![4, 1024]⟩

variable (X H C : SRows.Idx → EReal) (WI WH : SGates.Idx → EReal) (BI : SBias.Idx → EReal)

/-- The pre-activation of gate `g`, hidden unit `j`, at batch row `b`: the two inner products, then the bias. -/
def pre (b : Fin 16384) (g : Fin 4) (j : Fin 1024) : EReal :=
  ((∑ k : Fin 1024, X (ix2 b k) * WI (ix3 g j k)) + (∑ k : Fin 1024, H (ix2 b k) * WH (ix3 g j k))) + BI (ix2 g j)

/-- The output gate. -/
def outGate (i : SRows.Idx) : EReal := Ideal.logistic (pre X H WI WH BI (i 0) 3 (i 1))

/-- The new cell state: forget gate times the old state plus input gate times the candidate. -/
def cellNext (i : SRows.Idx) : EReal :=
  Ideal.logistic (pre X H WI WH BI (i 0) 1 (i 1)) * C i
    + Ideal.logistic (pre X H WI WH BI (i 0) 0 (i 1)) * Ideal.tanh (pre X H WI WH BI (i 0) 2 (i 1))

/-- The new hidden state. -/
def hidNext (i : SRows.Idx) : EReal := outGate X H WI WH BI i * Ideal.tanh (cellNext X H C WI WH BI i)

end Cert.Cell

end
-- ==== Proof.RefCell.lean ====
/-
  The reference computes the cell of `Cell.lean`.

  Its program forms both inner products over all four gates at once into a [row, gate, unit] array, adds the bias
  broadcast over the rows, slices one gate out at a time, and spells the sigmoid as 1 / (1 + e^(-x)).  Read at an
  index, a slice followed by the reshape that drops its unit axis picks gate `g` at (row, unit) — the row-major
  position (b·1024 + j) splits back into b and j — and the spelt sigmoid is the logistic function once the
  literal 0x3F800000 is read as the real number one.
-/
import proofs.«133642_j87668872446416_2_alg».proof.Proof.Gen.ReferenceIdeal.Read
import proofs.«133642_j87668872446416_2_alg».proof.Proof.Cell

noncomputable section

namespace Cert.RefCell

open Cert.ReferenceIdeal Cert.ReferenceIdeal.Gen Cert.ReferenceIdeal.Read Idealize.ShloMosaic Idealize.ShloMosaic.ValueIdx

variable (x0 x1 x2 : (⟨S16384x1024, .f32⟩ : BufTy).Contents (Elt Ideal))
  (x3 x5 : (⟨S4x1024x1024, .f32⟩ : BufTy).Contents (Elt Ideal)) (x4 : (⟨S4x1024, .f32⟩ : BufTy).Contents (Elt Ideal))

/-- The literal the reference's sigmoid is spelt with is the real number one. -/
theorem one_eq : Ideal.ofBits .f32 0x3F800000#32 = (1 : EReal) := by
  simp [Ideal.ofBits, Ideal.ieee, -EReal.coe_mul]; norm_num

/-- The [row, gate, unit] array of pre-activations, at an index whose coordinates are `b`, `g`, `j`. -/
theorem pre_at (i : S16384x4x1024.Idx) (b : Fin 16384) (g : Fin 4) (j : Fin 1024)
    (h0 : (i 0).val = b.val) (h1 : (i 1).val = g.val) (h2 : (i 2).val = j.val) :
    val_main_v5 (F := Ideal) x0 x1 x3 x4 x5 i = Cell.pre x0 x1 x3 x5 x4 b g j := by
  have hi : i = ix3 b g j := funext fun a => Fin.ext (by
    match a with
    | ⟨0, _⟩ => exact h0
    | ⟨1, _⟩ => exact h1
    | ⟨2, _⟩ => exact h2)
  subst hi
  rw [val_main_v5_apply, val_main_v2_apply, val_main_v0_apply, val_main_v1_apply, val_main_v4_apply, val_main_v3_apply]
  have el0 : ∀ k : Fin 1024, lidx_main_v0 (ix3 b g j) k = ix2 b k := fun k => funext fun a => Fin.ext (by
    match a with
    | ⟨0, _⟩ => rfl
    | ⟨1, _⟩ => rfl)
  have er0 : ∀ k : Fin 1024, ridx_main_v0 (ix3 b g j) k = ix3 g j k := fun k => funext fun a => Fin.ext (by
    match a with
    | ⟨0, _⟩ => rfl
    | ⟨1, _⟩ => rfl
    | ⟨2, _⟩ => rfl)
  have el1 : ∀ k : Fin 1024, lidx_main_v1 (ix3 b g j) k = ix2 b k := fun k => funext fun a => Fin.ext (by
    match a with
    | ⟨0, _⟩ => rfl
    | ⟨1, _⟩ => rfl)
  have er1 : ∀ k : Fin 1024, ridx_main_v1 (ix3 b g j) k = ix3 g j k := fun k => funext fun a => Fin.ext (by
    match a with
    | ⟨0, _⟩ => rfl
    | ⟨1, _⟩ => rfl
    | ⟨2, _⟩ => rfl)
  have eb : idx_main_v3 (idx_main_v4 (ix3 b g j)) = ix2 g j := funext fun a => Fin.ext (by
    match a with
    | ⟨0, _⟩ => rfl
    | ⟨1, _⟩ => rfl)
  simp only [el0, er0, el1, er1, eb]
  rfl

/-- Gate 0 sliced out and its unit axis dropped. -/
theorem gate0_at (i : S16384x1024.Idx) :
    val_main_v7 (F := Ideal) x0 x1 x3 x4 x5 i = Cell.pre x0 x1 x3 x5 x4 (i 0) 0 (i 1) := by
  have h0 : (i 0).val < 16384 := (i 0).isLt
  have h1 : (i 1).val < 1024 := (i 1).isLt
  rw [val_main_v7_apply, val_main_v6_apply]
  exact pre_at x0 x1 x3 x5 x4 _ (i 0) 0 (i 1)
    (by show ((i 0).val * 1024 + (i 1).val) / 1024 = (i 0).val; omega) (by rfl)
    (by show ((i 0).val * 1024 + (i 1).val) % 1024 = (i 1).val; omega)

/-- Gate 1 sliced out and its unit axis dropped. -/
theorem gate1_at (i : S16384x1024.Idx) :
    val_main_v15 (F := Ideal) x0 x1 x3 x4 x5 i = Cell.pre x0 x1 x3 x5 x4 (i 0) 1 (i 1) := by
  have h0 : (i 0).val < 16384 := (i 0).isLt
  have h1 : (i 1).val < 1024 := (i 1).isLt
  rw [val_main_v15_apply, val_main_v14_apply]
  exact pre_at x0 x1 x3 x5 x4 _ (i 0) 1 (i 1)
    (by show ((i 0).val * 1024 + (i 1).val) / 1024 = (i 0).val; omega) (by rfl)
    (by show ((i 0).val * 1024 + (i 1).val) % 1024 = (i 1).val; omega)

/-- Gate 2 sliced out and its unit axis dropped. -/
theorem gate2_at (i : S16384x1024.Idx) :
    val_main_v23 (F := Ideal) x0 x1 x3 x4 x5 i = Cell.pre x0 x1 x3 x5 x4 (i 0) 2 (i 1) := by
  have h0 : (i 0).val < 16384 := (i 0).isLt
  have h1 : (i 1).val < 1024 := (i 1).isLt
  rw [val_main_v23_apply, val_main_v22_apply]
  exact pre_at x0 x1 x3 x5 x4 _ (i 0) 2 (i 1)
    (by show ((i 0).val * 1024 + (i 1).val) / 1024 = (i 0).val; omega) (by rfl)
    (by show ((i 0).val * 1024 + (i 1).val) % 1024 = (i 1).val; omega)

/-- Gate 3 sliced out and its unit axis dropped. -/
theorem gate3_at (i : S16384x1024.Idx) :
    val_main_v26 (F := Ideal) x0 x1 x3 x4 x5 i = Cell.pre x0 x1 x3 x5 x4 (i 0) 3 (i 1) := by
  have h0 : (i 0).val < 16384 := (i 0).isLt
  have h1 : (i 1).val < 1024 := (i 1).isLt
  rw [val_main_v26_apply, val_main_v25_apply]
  exact pre_at x0 x1 x3 x5 x4 _ (i 0) 3 (i 1)
    (by show ((i 0).val * 1024 + (i 1).val) / 1024 = (i 0).val; omega) (by rfl)
    (by show ((i 0).val * 1024 + (i 1).val) % 1024 = (i 1).val; omega)

/-- The spelt sigmoid 1 / (1 + e^(-z)) with the literal one is the logistic function. -/
theorem spelt_logistic (z : EReal) :
    Ideal.div (Ideal.ofBits .f32 0x3F800000#32) (Ideal.ofBits .f32 0x3F800000#32 + Ideal.exp (-z)) = Ideal.logistic z := by
  rw [one_eq]; rfl

/-- The input gate. -/
theorem in_gate_at (i : S16384x1024.Idx) :
    val_main_v13 (F := Ideal) x0 x1 x3 x4 x5 i = Ideal.logistic (Cell.pre x0 x1 x3 x5 x4 (i 0) 0 (i 1)) := by
  rw [val_main_v13_apply, val_main_v12_apply, val_main_cst_0_apply, val_main_v11_apply, val_main_v10_apply,
    val_main_cst_apply, val_main_v9_apply, val_main_v8_apply, gate0_at]
  exact spelt_logistic _

/-- The forget gate. -/
theorem forget_gate_at (i : S16384x1024.Idx) :
    val_main_v21 (F := Ideal) x0 x1 x3 x4 x5 i = Ideal.logistic (Cell.pre x0 x1 x3 x5 x4 (i 0) 1 (i 1)) := by
  rw [val_main_v21_apply, val_main_v20_apply, val_main_cst_2_apply, val_main_v19_apply, val_main_v18_apply,
    val_main_cst_1_apply, val_main_v17_apply, val_main_v16_apply, gate1_at]
  exact spelt_logistic _

/-- The output gate. -/
theorem out_gate_at (i : S16384x1024.Idx) :
    val_main_v32 (F := Ideal) x0 x1 x3 x4 x5 i = Ideal.logistic (Cell.pre x0 x1 x3 x5 x4 (i 0) 3 (i 1)) := by
  rw [val_main_v32_apply, val_main_v31_apply, val_main_cst_4_apply, val_main_v30_apply, val_main_v29_apply,
    val_main_cst_3_apply, val_main_v28_apply, val_main_v27_apply, gate3_at]
  exact spelt_logistic _

/-- The reference's first result is the output gate. -/
theorem out_eq : val_main_v32 (F := Ideal) x0 x1 x3 x4 x5 = Cell.outGate x0 x1 x3 x5 x4 :=
  funext fun i => out_gate_at x0 x1 x3 x5 x4 i

/-- The reference's third result is the new cell state. -/
theorem cell_eq : val_main_v35 (F := Ideal) x0 x1 x2 x3 x4 x5 = Cell.cellNext x0 x1 x2 x3 x5 x4 := by
  funext i
  rw [val_main_v35_apply, val_main_v33_apply, val_main_v34_apply, forget_gate_at, in_gate_at, val_main_v24_apply, gate2_at]
  rfl

/-- The reference's second result is the new hidden state. -/
theorem hid_eq : val_main_v37 (F := Ideal) x0 x1 x2 x3 x4 x5 = Cell.hidNext x0 x1 x2 x3 x5 x4 := by
  funext i
  rw [val_main_v37_apply, val_main_v36_apply, out_gate_at, cell_eq]
  rfl

end Cert.RefCell

end
-- ==== Proof.KerPre.lean ====
/-
  The kernel body's pre-activation block, read at an index.

  At one grid point the body holds a block of 256 batch rows of `x` and `h`, the two weight arrays with the
  gate and unit axes merged into one axis of 4096 columns, and the bias as one row of 4096.  It multiplies each
  row block by the transposed weights (both products contract the feature axis, axis 1 of each operand, into a zero
  accumulator), adds the two products, and adds the bias row broadcast down the 256 rows.  The narrowing of the
  operands to bf16 changes nothing on the extended reals, and the casts of a shape to itself are the identity.  So
  entry (p, q) of the block is the two inner products of row p with weight row q, plus bias entry q.
-/
import proofs.«133642_j87668872446416_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KerPre

open Cert.KernelIdeal Cert.KernelIdeal.Gen Idealize.ShloMosaic Idealize.ShloMosaic.ValueIdx

/-- The left operand's row coordinate is the output's row. -/
theorem lhs_row (i : S256x4096.Idx) (q : dot_S256x1024_S4096x1024_S256x4096_1_1_0_0_n_n.contr.Idx) :
    (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide), dif_pos (show (0 : Fin S256x1024.rank) ∈ dot_S256x1024_S4096x1024_S256x4096_1_1_0_0_n_n.lhsNonContracting by decide)]
  rfl

/-- The left operand's feature coordinate is the contracted index. -/
theorem lhs_feat (i : S256x4096.Idx) (q : dot_S256x1024_S4096x1024_S256x4096_1_1_0_0_n_n.contr.Idx) :
    (dot_S256x1024_S4096x1024_S256x4096_1_1_0_0_n_n.lhsIdx i q 1).val = (q ⟨0, by decide⟩).val :=
  dot_S256x1024_S4096x1024_S256x4096_1_1_0_0_n_n.lhsIdx_val_of_single rfl i q

/-- The right operand's row coordinate is the output's column. -/
theorem rhs_row (i : S256x4096.Idx) (q : dot_S256x1024_S4096x1024_S256x4096_1_1_0_0_n_n.contr.Idx) :
    (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide), dif_pos (show (0 : Fin S4096x1024.rank) ∈ dot_S256x1024_S4096x1024_S256x4096_1_1_0_0_n_n.rhsNonContracting by decide)]
  rfl

/-- The right operand's feature coordinate is the contracted index. -/
theorem rhs_feat (i : S256x4096.Idx) (q : dot_S256x1024_S4096x1024_S256x4096_1_1_0_0_n_n.contr.Idx) :
    (dot_S256x1024_S4096x1024_S256x4096_1_1_0_0_n_n.rhsIdx i q 1).val = (q ⟨0, by decide⟩).val :=
  dot_S256x1024_S4096x1024_S256x4096_1_1_0_0_n_n.rhsIdx_val_of_single rfl i q

/-- A row block times the transposed weights, into a zero accumulator, at (p, q): the inner product of row p of the
    left operand with row q of the right. -/
theorem product_at (A : FVec Ideal S256x1024 .bf16) (B : FVec Ideal S4096x1024 .bf16) (p : Fin 256) (q : Fin 4096) :
    FloatOps.matmul dot_S256x1024_S4096x1024_S256x4096_1_1_0_0_n_n none A B (constant (F := Ideal) S256x4096 .f32 0x00000000#32) (ix2 p q)
      = ∑ k : Fin 1024, A (ix2 p k) * B (ix2 q k) := by
  rw [Ideal.matmul_constant_zero_apply, ← Equiv.sum_comp (contrEquiv1 dot_S256x1024_S4096x1024_S256x4096_1_1_0_0_n_n 1024 rfl rfl).symm]
  refine Finset.sum_congr rfl fun k _ => ?_
  have hk := contrEquiv1_symm_val dot_S256x1024_S4096x1024_S256x4096_1_1_0_0_n_n 1024 rfl rfl k
  have el : dot_S256x1024_S4096x1024_S256x4096_1_1_0_0_n_n.lhsIdx (ix2 p q) ((contrEquiv1 dot_S256x1024_S4096x1024_S256x4096_1_1_0_0_n_n 1024 rfl rfl).symm k) = ix2 p k := funext fun a => Fin.ext (by
    match a with
    | ⟨0, _⟩ => exact lhs_row _ _
    | ⟨1, _⟩ => exact (lhs_feat _ _).trans hk)
  have er : dot_S256x1024_S4096x1024_S256x4096_1_1_0_0_n_n.rhsIdx (ix2 p q) ((contrEquiv1 dot_S256x1024_S4096x1024_S256x4096_1_1_0_0_n_n 1024 rfl rfl).symm k) = ix2 q k := funext fun a => Fin.ext (by
    match a with
    | ⟨0, _⟩ => exact rhs_row _ _
    | ⟨1, _⟩ => exact (rhs_feat _ _).trans hk)
  rw [el, er]

/-- The bias row broadcast down the rows, at (p, q), is bias entry q. -/
theorem bias_at (b : FVec Ideal S1x4096 .f32) (p : Fin 256) (q : Fin 4096) :
    broadcastTo S256x4096 b broadcasts_S1x4096_S256x4096 (ix2 p q) = b (ix2 0 q) :=
  broadcastTo_apply b broadcasts_S1x4096_S256x4096 (ix2 p q) (ix2 0 q) (fun a => match a with
    | ⟨0, _⟩ => by show 0 = if (1 : Nat) = 1 then 0 else _; rw [if_pos rfl]
    | ⟨1, _⟩ => by show q.val = if (4096 : Nat) = 1 then 0 else q.val; rw [if_neg (by decide)])

/-- Entry (p, q) of the pre-activation block: the two inner products, then the bias. -/
theorem pre_block_at (P0 P1 : Vec Ideal S256x1024 .f32) (P2 P3 : Vec Ideal S4096x1024 .bf16) (P4 : Vec Ideal S1x4096 .f32)
    (p : Fin 256) (q : Fin 4096) :
    k0_pay1 (F := Ideal) P0 P1 P2 P3 P4 (ix2 p q)
      = ((∑ k : Fin 1024, P0 (ix2 p k) * P2 (ix2 q k)) + (∑ k : Fin 1024, P1 (ix2 p k) * P3 (ix2 q k))) + P4 (ix2 0 q) := by
  unfold k0_pay1
  show (FloatOps.matmul dot_S256x1024_S4096x1024_S256x4096_1_1_0_0_n_n none (truncf .bf16 P0 bitsLt_bf16_f32) (shapeCast S4096x1024 P2 shapeCasts_S4096x1024_S4096x1024) (constant (F := Ideal) S256x4096 .f32 0x00000000#32) (ix2 p q)
      + FloatOps.matmul dot_S256x1024_S4096x1024_S256x4096_1_1_0_0_n_n none (truncf .bf16 P1 bitsLt_bf16_f32) (shapeCast S4096x1024 P3 shapeCasts_S4096x1024_S4096x1024) (constant (F := Ideal) S256x4096 .f32 0x00000000#32) (ix2 p q))
      + broadcastTo S256x4096 (shapeCast S1x4096 P4 shapeCasts_S1x4096_S1x4096) broadcasts_S1x4096_S256x4096 (ix2 p q) = _
  rw [product_at, product_at, bias_at, shapeCast_self, shapeCast_self, shapeCast_self]
  rfl

end Cert.KerPre

end
-- ==== Proof.Blocks.lean ====
/-
  What each input window's block holds at a grid point, in terms of the argument arrays.

  The grid has 64 points; point t stages rows 256·t … 256·t + 255 of `x`, `h` and `c` (and of each result), and the
  whole of the two weight arrays and of the bias at every point.  The weight arrays the region stages are the
  arguments with gate and unit axes merged (row g·1024 + j is gate g, unit j) and narrowed to bf16, which on the
  extended reals is no change; the bias is the argument laid out as one row of 4096.
-/
import proofs.«133642_j87668872446416_2_alg».proof.Proof.Gen.KernelIdeal.Frame
import Idealize.ShloMosaic.Lib.ValueIdx
import Idealize.ShloMosaic.Lib.Pipeline.Value
import Idealize.ShloMosaic.Lib.StableHlo.Run

noncomputable section

namespace Cert.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The block index of every window at every grid point: the row windows move with the point, the weight and
    bias windows stay at the origin. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- The input-weight array as the region finds it. -/
theorem staged_wi (c : Dev nD) :
    (V m c main_v1 : S4096x1024.Idx → EReal)
      = truncf (F := Ideal) .bf16 (shapeCast S4096x1024 (m ((c : Thread nD τ).loc main_arg3)) shapeCasts_S4x1024x1024_S4096x1024) bitsLt_bf16_f32 := by
  dsimp only [Gen.V, Gen.hostOps0]; after_results; rfl

/-- The hidden-weight array as the region finds it. -/
theorem staged_wh (c : Dev nD) :
    (V m c main_v3 : S4096x1024.Idx → EReal)
      = truncf (F := Ideal) .bf16 (shapeCast S4096x1024 (m ((c : Thread nD τ).loc main_arg5)) shapeCasts_S4x1024x1024_S4096x1024) bitsLt_bf16_f32 := by
  dsimp only [Gen.V, Gen.hostOps0]; after_results; rfl

/-- The bias row as the region finds it. -/
theorem staged_bias (c : Dev nD) :
    (V m c main_v4 : S1x4096.Idx → EReal)
      = shapeCast S1x4096 (m ((c : Thread nD τ).loc main_arg4)) shapeCasts_S4x1024_S1x4096 := by
  dsimp only [Gen.V, Gen.hostOps0]; after_results; rfl

/-- The block of `x` at point t, entry y, is the argument's entry (256·t + y₀, y₁). -/
theorem x_block_at (c : Dev nD) (t : Fin cfg0.N) (y : S256x1024.Idx) (i : S16384x1024.Idx)
    (h0 : (i 0).val = t.val * 256 + (y 0).val) (h1 : (i 1).val = (y 1).val) :
    (iblk m c 0 t : S256x1024.Idx → EReal) y = m ((c : Thread nD τ).loc main_arg0) i := by
  obtain ⟨e00, e01, e10, e11, e20, e21, e30, e31, e40, e41, e50, e51, e60, e61, e70, e71, e80, e81⟩ := block_index t
  show V m c main_arg0 (((cfg0.win 0).blk t).view.emb y) = _
  rw [V_main_arg0]
  refine congrArg (m ((c : Thread nD τ).loc main_arg0)) (funext fun a => Fin.ext ?_)
  match a with
  | ⟨0, _⟩ => show win0_0.index t (0 : Fin 2) * 256 + 1 * (y 0).val = (i 0).val; omega
  | ⟨1, _⟩ => show win0_0.index t (1 : Fin 2) * 1024 + 1 * (y 1).val = (i 1).val; omega

/-- The block of `h` at point t, entry y, is the argument's entry (256·t + y₀, y₁). -/
theorem h_block_at (c : Dev nD) (t : Fin cfg0.N) (y : S256x1024.Idx) (i : S16384x1024.Idx)
    (h0 : (i 0).val = t.val * 256 + (y 0).val) (h1 : (i 1).val = (y 1).val) :
    (iblk m c 1 t : S256x1024.Idx → EReal) y = m ((c : Thread nD τ).loc main_arg1) i := by
  obtain ⟨e00, e01, e10, e11, e20, e21, e30, e31, e40, e41, e50, e51, e60, e61, e70, e71, e80, e81⟩ := block_index t
  show V m c main_arg1 (((cfg0.win 1).blk t).view.emb y) = _
  rw [V_main_arg1]
  refine congrArg (m ((c : Thread nD τ).loc main_arg1)) (funext fun a => Fin.ext ?_)
  match a with
  | ⟨0, _⟩ => show win0_1.index t (0 : Fin 2) * 256 + 1 * (y 0).val = (i 0).val; omega
  | ⟨1, _⟩ => show win0_1.index t (1 : Fin 2) * 1024 + 1 * (y 1).val = (i 1).val; omega

/-- The block of `c` at point t, entry y, is the argument's entry (256·t + y₀, y₁). -/
theorem c_block_at (c : Dev nD) (t : Fin cfg0.N) (y : S256x1024.Idx) (i : S16384x1024.Idx)
    (h0 : (i 0).val = t.val * 256 + (y 0).val) (h1 : (i 1).val = (y 1).val) :
    (iblk m c 2 t : S256x1024.Idx → EReal) y = m ((c : Thread nD τ).loc main_arg2) i := by
  obtain ⟨e00, e01, e10, e11, e20, e21, e30, e31, e40, e41, e50, e51, e60, e61, e70, e71, e80, e81⟩ := block_index t
  show V m c main_arg2 (((cfg0.win 2).blk t).view.emb y) = _
  rw [V_main_arg2]
  refine congrArg (m ((c : Thread nD τ).loc main_arg2)) (funext fun a => Fin.ext ?_)
  match a with
  | ⟨0, _⟩ => show win0_2.index t (0 : Fin 2) * 256 + 1 * (y 0).val = (i 0).val; omega
  | ⟨1, _⟩ => show win0_2.index t (1 : Fin 2) * 1024 + 1 * (y 1).val = (i 1).val; omega

/-- Row g·1024 + j of the staged input weights is gate g, unit j of the argument. -/
theorem wi_block_at (c : Dev nD) (t : Fin cfg0.N) (y : S4096x1024.Idx) (i : S4x1024x1024.Idx)
    (h0 : (i 0).val * 1024 + (i 1).val = (y 0).val) (h1 : (i 2).val = (y 1).val) :
    (iblk m c 3 t : S4096x1024.Idx → EReal) y = m ((c : Thread nD τ).loc main_arg3) i := by
  obtain ⟨e00, e01, e10, e11, e20, e21, e30, e31, e40, e41, e50, e51, e60, e61, e70, e71, e80, e81⟩ := block_index t
  show V m c main_v1 (((cfg0.win 3).blk t).view.emb y) = _
  refine (congrFun (staged_wi m c) _).trans ?_
  show shapeCast S4096x1024 (m ((c : Thread nD τ).loc main_arg3)) shapeCasts_S4x1024x1024_S4096x1024 (((cfg0.win 3).blk t).view.emb y) = _
  refine shapeCast_apply _ _ _ i ?_
  rewrite [Shape.rowMajor_val_three, Shape.rowMajor_val_two]
  show ((i 0).val * 1024 + (i 1).val) * 1024 + (i 2).val = (win0_3.index t (0 : Fin 2) * 4096 + 1 * (y 0).val) * 1024 + (win0_3.index t (1 : Fin 2) * 1024 + 1 * (y 1).val)
  omega

/-- Row g·1024 + j of the staged hidden weights is gate g, unit j of the argument. -/
theorem wh_block_at (c : Dev nD) (t : Fin cfg0.N) (y : S4096x1024.Idx) (i : S4x1024x1024.Idx)
    (h0 : (i 0).val * 1024 + (i 1).val = (y 0).val) (h1 : (i 2).val = (y 1).val) :
    (iblk m c 4 t : S4096x1024.Idx → EReal) y = m ((c : Thread nD τ).loc main_arg5) i := by
  obtain ⟨e00, e01, e10, e11, e20, e21, e30, e31, e40, e41, e50, e51, e60, e61, e70, e71, e80, e81⟩ := block_index t
  show V m c main_v3 (((cfg0.win 4).blk t).view.emb y) = _
  refine (congrFun (staged_wh m c) _).trans ?_
  show shapeCast S4096x1024 (m ((c : Thread nD τ).loc main_arg5)) shapeCasts_S4x1024x1024_S4096x1024 (((cfg0.win 4).blk t).view.emb y) = _
  refine shapeCast_apply _ _ _ i ?_
  rewrite [Shape.rowMajor_val_three, Shape.rowMajor_val_two]
  show ((i 0).val * 1024 + (i 1).val) * 1024 + (i 2).val = (win0_4.index t (0 : Fin 2) * 4096 + 1 * (y 0).val) * 1024 + (win0_4.index t (1 : Fin 2) * 1024 + 1 * (y 1).val)
  omega

/-- Entry g·1024 + j of the staged bias row is gate g, unit j of the argument. -/
theorem bias_block_at (c : Dev nD) (t : Fin cfg0.N) (y : S1x4096.Idx) (i : S4x1024.Idx)
    (h : (i 0).val * 1024 + (i 1).val = (y 1).val) :
    (iblk m c 5 t : S1x4096.Idx → EReal) y = m ((c : Thread nD τ).loc main_arg4) i := by
  obtain ⟨e00, e01, e10, e11, e20, e21, e30, e31, e40, e41, e50, e51, e60, e61, e70, e71, e80, e81⟩ := block_index t
  have hy0 : (y 0).val < 1 := (y 0).isLt
  show V m c main_v4 (((cfg0.win 5).blk t).view.emb y) = _
  refine (congrFun (staged_bias m c) _).trans ?_
  refine shapeCast_apply _ _ _ i ?_
  rewrite [Shape.rowMajor_val_two, Shape.rowMajor_val_two]
  show (i 0).val * 1024 + (i 1).val = (win0_5.index t (0 : Fin 2) * 1 + 1 * (y 0).val) * 4096 + (win0_5.index t (1 : Fin 2) * 4096 + 1 * (y 1).val)
  omega

end Cert.Blocks

end
-- ==== Proof.KerCell.lean ====
/-
  The kernel computes the cell of `Cell.lean`, block by block.

  At grid point t the body's pre-activation block has 256 rows (batch rows 256·t … 256·t + 255) and 4096 columns,
  column g·1024 + j being gate g, unit j; its entry is the pre-activation of `Cell.lean` at that row, gate and unit,
  because the staged blocks are the argument arrays read at those rows and the merged weight rows are (gate, unit)
  pairs.  The three stored blocks slice the gates out by column offset (0, 1024, 2048, 3072) and combine them
  pointwise exactly as the cell does, so what point t writes back is block t of each whole-array result; the 64
  blocks tile the rows, so each result array ends as the whole-array function.
-/
import proofs.«133642_j87668872446416_2_alg».proof.Proof.Gen.KernelIdeal.Value
import proofs.«133642_j87668872446416_2_alg».proof.Proof.Cell
import proofs.«133642_j87668872446416_2_alg».proof.Proof.KerPre
import proofs.«133642_j87668872446416_2_alg».proof.Proof.Blocks

noncomputable section

namespace Cert.KerCell

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The body's accesses all start at the origin of their buffers. -/
theorem origin : (![0, 0] : Fin 2 → Nat) = fun _ => 0 := funext fun a => by fin_cases a <;> rfl

/-- Entry j of the pre-activation block at point t, when j's row is batch row b of the point's rows and j's column
    is gate g, unit u: the cell's pre-activation. -/
theorem pre_block (c : Dev nD) (t : Fin cfg0.N) (j : S256x4096.Idx) (b : Fin 16384) (g : Fin 4) (u : Fin 1024)
    (hb : b.val = t.val * 256 + (j 0).val) (hq : g.val * 1024 + u.val = (j 1).val) :
    k0_pay1 (F := Ideal) (iblk m c 0 t) (iblk m c 1 t) (iblk m c 3 t) (iblk m c 4 t) (iblk m c 5 t) j = Cell.pre (m ((c : Thread nD τ).loc main_arg0)) (m ((c : Thread nD τ).loc main_arg1)) (m ((c : Thread nD τ).loc main_arg3)) (m ((c : Thread nD τ).loc main_arg5)) (m ((c : Thread nD τ).loc main_arg4)) b g u := by
  refine (congrArg (k0_pay1 (F := Ideal) (iblk m c 0 t) (iblk m c 1 t) (iblk m c 3 t) (iblk m c 4 t) (iblk m c 5 t)) (eq_ix2 j)).trans ?_
  refine (KerPre.pre_block_at (iblk m c 0 t) (iblk m c 1 t) (iblk m c 3 t) (iblk m c 4 t) (iblk m c 5 t) (j 0) (j 1)).trans ?_
  unfold Cell.pre
  refine congrArg₂ (· + ·) (congrArg₂ (· + ·) (Finset.sum_congr rfl fun k _ => ?_) (Finset.sum_congr rfl fun k _ => ?_)) ?_
  · exact congrArg₂ (· * ·) (Blocks.x_block_at m c t (ix2 (j 0) k) (ix2 b k) hb rfl) (Blocks.wi_block_at m c t (ix2 (j 1) k) (ix3 g u k) hq rfl)
  · exact congrArg₂ (· * ·) (Blocks.h_block_at m c t (ix2 (j 0) k) (ix2 b k) hb rfl) (Blocks.wh_block_at m c t (ix2 (j 1) k) (ix3 g u k) hq rfl)
  · exact Blocks.bias_block_at m c t (ix2 0 (j 1)) (ix2 g u) hq

/-- The same at a column given as an offset into gate g's 1024 columns, for the entry of the results at row and
    unit `i` that block entry `y` of point t is. -/
theorem gate_block (c : Dev nD) (t : Fin cfg0.N) (y : S256x1024.Idx) (i : S16384x1024.Idx) (hi0 : (i 0).val = t.val * 256 + (y 0).val) (hi1 : (i 1).val = (y 1).val)
    (g : Fin 4) (j : S256x4096.Idx) (hj0 : (j 0).val = (y 0).val) (hj1 : (j 1).val = (y 1).val + g.val * 1024) :
    k0_pay1 (F := Ideal) (iblk m c 0 t) (iblk m c 1 t) (iblk m c 3 t) (iblk m c 4 t) (iblk m c 5 t) j = Cell.pre (m ((c : Thread nD τ).loc main_arg0)) (m ((c : Thread nD τ).loc main_arg1)) (m ((c : Thread nD τ).loc main_arg3)) (m ((c : Thread nD τ).loc main_arg5)) (m ((c : Thread nD τ).loc main_arg4)) (i 0) g (i 1) :=
  pre_block m c t j (i 0) g (i 1) (by omega) (by omega)

/-- The block of the first result at point t: the output gate. -/
theorem out_block_at (c : Dev nD) (t : Fin cfg0.N) (y : S256x1024.Idx) (i : S16384x1024.Idx) (hi0 : (i 0).val = t.val * 256 + (y 0).val) (hi1 : (i 1).val = (y 1).val) :
    Value.E6 (F := Ideal) (iblk m c 0 t) (iblk m c 1 t) (iblk m c 3 t) (iblk m c 4 t) (iblk m c 5 t) y = Cell.outGate (m ((c : Thread nD τ).loc main_arg0)) (m ((c : Thread nD τ).loc main_arg1)) (m ((c : Thread nD τ).loc main_arg3)) (m ((c : Thread nD τ).loc main_arg5)) (m ((c : Thread nD τ).loc main_arg4)) i := by
  have hy1 : (y 1).val < 1024 := (y 1).isLt
  show Ideal.logistic (k0_pay1 (F := Ideal) (iblk m c 0 t) (iblk m c 1 t) (iblk m c 3 t) (iblk m c 4 t) (iblk m c 5 t) (Value.ix6_0 y)) = Ideal.logistic (Cell.pre (m ((c : Thread nD τ).loc main_arg0)) (m ((c : Thread nD τ).loc main_arg1)) (m ((c : Thread nD τ).loc main_arg3)) (m ((c : Thread nD τ).loc main_arg5)) (m ((c : Thread nD τ).loc main_arg4)) (i 0) 3 (i 1))
  exact congrArg Ideal.logistic (gate_block m c t y i hi0 hi1 3 _ rfl rfl)

/-- The block of the third result at point t: the new cell state. -/
theorem cell_block_at (c : Dev nD) (t : Fin cfg0.N) (y : S256x1024.Idx) (i : S16384x1024.Idx) (hi0 : (i 0).val = t.val * 256 + (y 0).val) (hi1 : (i 1).val = (y 1).val) :
    Value.E8 (F := Ideal) (iblk m c 0 t) (iblk m c 1 t) (iblk m c 3 t) (iblk m c 4 t) (iblk m c 5 t) (iblk m c 2 t) y = Cell.cellNext (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) i := by
  show Ideal.logistic (k0_pay1 (F := Ideal) (iblk m c 0 t) (iblk m c 1 t) (iblk m c 3 t) (iblk m c 4 t) (iblk m c 5 t) (Value.ix8_0 y)) * (iblk m c 2 t : S256x1024.Idx → EReal) (Value.ix8_1 y)
      + Ideal.logistic (k0_pay1 (F := Ideal) (iblk m c 0 t) (iblk m c 1 t) (iblk m c 3 t) (iblk m c 4 t) (iblk m c 5 t) (Value.ix8_2 y)) * Ideal.tanh (k0_pay1 (F := Ideal) (iblk m c 0 t) (iblk m c 1 t) (iblk m c 3 t) (iblk m c 4 t) (iblk m c 5 t) (Value.ix8_3 y))
    = Ideal.logistic (Cell.pre (m ((c : Thread nD τ).loc main_arg0)) (m ((c : Thread nD τ).loc main_arg1)) (m ((c : Thread nD τ).loc main_arg3)) (m ((c : Thread nD τ).loc main_arg5)) (m ((c : Thread nD τ).loc main_arg4)) (i 0) 1 (i 1)) * (m ((c : Thread nD τ).loc main_arg2)) i
      + Ideal.logistic (Cell.pre (m ((c : Thread nD τ).loc main_arg0)) (m ((c : Thread nD τ).loc main_arg1)) (m ((c : Thread nD τ).loc main_arg3)) (m ((c : Thread nD τ).loc main_arg5)) (m ((c : Thread nD τ).loc main_arg4)) (i 0) 0 (i 1)) * Ideal.tanh (Cell.pre (m ((c : Thread nD τ).loc main_arg0)) (m ((c : Thread nD τ).loc main_arg1)) (m ((c : Thread nD τ).loc main_arg3)) (m ((c : Thread nD τ).loc main_arg5)) (m ((c : Thread nD τ).loc main_arg4)) (i 0) 2 (i 1))
  exact congrArg₂ (· + ·)
    (congrArg₂ (· * ·) (congrArg Ideal.logistic (gate_block m c t y i hi0 hi1 1 _ rfl rfl)) (Blocks.c_block_at m c t _ i hi0 hi1))
    (congrArg₂ (· * ·) (congrArg Ideal.logistic (gate_block m c t y i hi0 hi1 0 _ rfl (by show (y 1).val = (y 1).val + 0 * 1024; omega)))
      (congrArg Ideal.tanh (gate_block m c t y i hi0 hi1 2 _ rfl rfl)))

/-- The block of the second result at point t: the new hidden state. -/
theorem hid_block_at (c : Dev nD) (t : Fin cfg0.N) (y : S256x1024.Idx) (i : S16384x1024.Idx) (hi0 : (i 0).val = t.val * 256 + (y 0).val) (hi1 : (i 1).val = (y 1).val) :
    Value.E7 (F := Ideal) (iblk m c 0 t) (iblk m c 1 t) (iblk m c 3 t) (iblk m c 4 t) (iblk m c 5 t) (iblk m c 2 t) y = Cell.hidNext (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) i := by
  show Ideal.logistic (k0_pay1 (F := Ideal) (iblk m c 0 t) (iblk m c 1 t) (iblk m c 3 t) (iblk m c 4 t) (iblk m c 5 t) (Value.ix7_0 y))
      * Ideal.tanh (Ideal.logistic (k0_pay1 (F := Ideal) (iblk m c 0 t) (iblk m c 1 t) (iblk m c 3 t) (iblk m c 4 t) (iblk m c 5 t) (Value.ix7_1 y)) * (iblk m c 2 t : S256x1024.Idx → EReal) (Value.ix7_2 y)
        + Ideal.logistic (k0_pay1 (F := Ideal) (iblk m c 0 t) (iblk m c 1 t) (iblk m c 3 t) (iblk m c 4 t) (iblk m c 5 t) (Value.ix7_3 y)) * Ideal.tanh (k0_pay1 (F := Ideal) (iblk m c 0 t) (iblk m c 1 t) (iblk m c 3 t) (iblk m c 4 t) (iblk m c 5 t) (Value.ix7_4 y)))
    = Ideal.logistic (Cell.pre (m ((c : Thread nD τ).loc main_arg0)) (m ((c : Thread nD τ).loc main_arg1)) (m ((c : Thread nD τ).loc main_arg3)) (m ((c : Thread nD τ).loc main_arg5)) (m ((c : Thread nD τ).loc main_arg4)) (i 0) 3 (i 1))
      * Ideal.tanh (Ideal.logistic (Cell.pre (m ((c : Thread nD τ).loc main_arg0)) (m ((c : Thread nD τ).loc main_arg1)) (m ((c : Thread nD τ).loc main_arg3)) (m ((c : Thread nD τ).loc main_arg5)) (m ((c : Thread nD τ).loc main_arg4)) (i 0) 1 (i 1)) * (m ((c : Thread nD τ).loc main_arg2)) i
        + Ideal.logistic (Cell.pre (m ((c : Thread nD τ).loc main_arg0)) (m ((c : Thread nD τ).loc main_arg1)) (m ((c : Thread nD τ).loc main_arg3)) (m ((c : Thread nD τ).loc main_arg5)) (m ((c : Thread nD τ).loc main_arg4)) (i 0) 0 (i 1)) * Ideal.tanh (Cell.pre (m ((c : Thread nD τ).loc main_arg0)) (m ((c : Thread nD τ).loc main_arg1)) (m ((c : Thread nD τ).loc main_arg3)) (m ((c : Thread nD τ).loc main_arg5)) (m ((c : Thread nD τ).loc main_arg4)) (i 0) 2 (i 1)))
  exact congrArg₂ (· * ·) (congrArg Ideal.logistic (gate_block m c t y i hi0 hi1 3 _ rfl rfl))
    (congrArg Ideal.tanh (congrArg₂ (· + ·)
      (congrArg₂ (· * ·) (congrArg Ideal.logistic (gate_block m c t y i hi0 hi1 1 _ rfl rfl)) (Blocks.c_block_at m c t _ i hi0 hi1))
      (congrArg₂ (· * ·) (congrArg Ideal.logistic (gate_block m c t y i hi0 hi1 0 _ rfl (by show (y 1).val = (y 1).val + 0 * 1024; omega)))
        (congrArg Ideal.tanh (gate_block m c t y i hi0 hi1 2 _ rfl rfl)))))

/-- What point t writes back to the first result is block t of the output gate. -/
theorem out_flushed (c : Dev nD) (t : Fin cfg0.N) :
    (dats m 0 c).flushed 6 t = ((cfg0.win 6).blk t).view.read (Elt Ideal) (Cell.outGate (m ((c : Thread nD τ).loc main_arg0)) (m ((c : Thread nD τ).loc main_arg1)) (m ((c : Thread nD τ).loc main_arg3)) (m ((c : Thread nD τ).loc main_arg5)) (m ((c : Thread nD τ).loc main_arg4))) := by
  obtain ⟨e00, e01, e10, e11, e20, e21, e30, e31, e40, e41, e50, e51, e60, e61, e70, e71, e80, e81⟩ := Blocks.block_index t
  rw [Value.flushed6]
  unfold Gen.out0_6
  simp only [View.ld_unit_zero (S := S256x1024) origin, View.ld_unit_zero (S := S4096x1024) origin, View.ld_unit_zero (S := S1x4096) origin]
  funext y
  show View.canon ([⟨r0_0, k0_pay2 (F := Ideal) (iblk m c 0 t) (iblk m c 1 t) (iblk m c 3 t) (iblk m c 4 t) (iblk m c 5 t)⟩] : List (View.Piece (Elt Ideal) S256x1024 .f32)) y = (Cell.outGate (m ((c : Thread nD τ).loc main_arg0)) (m ((c : Thread nD τ).loc main_arg1)) (m ((c : Thread nD τ).loc main_arg3)) (m ((c : Thread nD τ).loc main_arg5)) (m ((c : Thread nD τ).loc main_arg4))) (((cfg0.win 6).blk t).view.emb y)
  refine (Value.canon6_eq _ _ _ _ _ y).trans ?_
  refine out_block_at m c t y _ ?_ ?_
  · show win0_6.index t (0 : Fin 2) * 256 + 1 * (y 0).val = t.val * 256 + (y 0).val; omega
  · show win0_6.index t (1 : Fin 2) * 1024 + 1 * (y 1).val = (y 1).val; omega

/-- What point t writes back to the second result is block t of the new hidden state. -/
theorem hid_flushed (c : Dev nD) (t : Fin cfg0.N) :
    (dats m 0 c).flushed 7 t = ((cfg0.win 7).blk t).view.read (Elt Ideal) (Cell.hidNext (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4))) := by
  obtain ⟨e00, e01, e10, e11, e20, e21, e30, e31, e40, e41, e50, e51, e60, e61, e70, e71, e80, e81⟩ := Blocks.block_index t
  rw [Value.flushed7]
  unfold Gen.out0_7
  simp only [View.ld_unit_zero (S := S256x1024) origin, View.ld_unit_zero (S := S4096x1024) origin, View.ld_unit_zero (S := S1x4096) origin]
  funext y
  show View.canon ([⟨r0_0, k0_pay4 (F := Ideal) (iblk m c 0 t) (iblk m c 1 t) (iblk m c 3 t) (iblk m c 4 t) (iblk m c 5 t) (iblk m c 2 t)⟩] : List (View.Piece (Elt Ideal) S256x1024 .f32)) y = (Cell.hidNext (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4))) (((cfg0.win 7).blk t).view.emb y)
  refine (Value.canon7_eq _ _ _ _ _ _ y).trans ?_
  refine hid_block_at m c t y _ ?_ ?_
  · show win0_7.index t (0 : Fin 2) * 256 + 1 * (y 0).val = t.val * 256 + (y 0).val; omega
  · show win0_7.index t (1 : Fin 2) * 1024 + 1 * (y 1).val = (y 1).val; omega

/-- What point t writes back to the third result is block t of the new cell state. -/
theorem cell_flushed (c : Dev nD) (t : Fin cfg0.N) :
    (dats m 0 c).flushed 8 t = ((cfg0.win 8).blk t).view.read (Elt Ideal) (Cell.cellNext (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4))) := by
  obtain ⟨e00, e01, e10, e11, e20, e21, e30, e31, e40, e41, e50, e51, e60, e61, e70, e71, e80, e81⟩ := Blocks.block_index t
  rw [Value.flushed8]
  unfold Gen.out0_8
  simp only [View.ld_unit_zero (S := S256x1024) origin, View.ld_unit_zero (S := S4096x1024) origin, View.ld_unit_zero (S := S1x4096) origin]
  funext y
  show View.canon ([⟨r0_0, k0_pay3 (F := Ideal) (iblk m c 0 t) (iblk m c 1 t) (iblk m c 3 t) (iblk m c 4 t) (iblk m c 5 t) (iblk m c 2 t)⟩] : List (View.Piece (Elt Ideal) S256x1024 .f32)) y = (Cell.cellNext (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4))) (((cfg0.win 8).blk t).view.emb y)
  refine (Value.canon8_eq _ _ _ _ _ _ y).trans ?_
  refine cell_block_at m c t y _ ?_ ?_
  · show win0_8.index t (0 : Fin 2) * 256 + 1 * (y 0).val = t.val * 256 + (y 0).val; omega
  · show win0_8.index t (1 : Fin 2) * 1024 + 1 * (y 1).val = (y 1).val; omega

/-- An index of result 0 lies in point t's block exactly when each coordinate is in the block's range. -/
theorem mem_block6 (t : Fin cfg0.N) (i : S16384x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v5_0).slice (win0_6.rect t)).set ↔ _
  rw [View.set_slice_whole, Rect.mem_set_unit]
  exact Iff.rfl

/-- Row r of result 0 is written by point r / 256: the 64 blocks of 256 rows tile the 16384 rows. -/
theorem cover6 (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  have ht : (i 0).val / 256 < cfg0.N := by rw [show cfg0.N = 64 from N_0]; omega
  obtain ⟨e00, e01, e10, e11, e20, e21, e30, e31, e40, e41, e50, e51, e60, e61, e70, e71, e80, e81⟩ := Blocks.block_index (⟨(i 0).val / 256, ht⟩ : Fin cfg0.N)
  refine ⟨⟨(i 0).val / 256, ht⟩, flush0_6 _, ?_⟩
  rw [mem_block6]
  intro a
  match a with
  | ⟨0, _⟩ => show win0_6.index ⟨(i 0).val / 256, ht⟩ (0 : Fin 2) * 256 ≤ (i 0).val ∧ (i 0).val < win0_6.index ⟨(i 0).val / 256, ht⟩ (0 : Fin 2) * 256 + 256; rw [e60]; show (i 0).val / 256 * 256 ≤ (i 0).val ∧ (i 0).val < (i 0).val / 256 * 256 + 256; omega
  | ⟨1, _⟩ => show win0_6.index ⟨(i 0).val / 256, ht⟩ (1 : Fin 2) * 1024 ≤ (i 1).val ∧ (i 1).val < win0_6.index ⟨(i 0).val / 256, ht⟩ (1 : Fin 2) * 1024 + 1024; rw [e61]; omega

/-- The first result array after the run is the output gate. -/
theorem out_final (c : Dev nD) : (dats m 0 c).arrAt 6 cfg0.N = Cell.outGate (m ((c : Thread nD τ).loc main_arg0)) (m ((c : Thread nD τ).loc main_arg1)) (m ((c : Thread nD τ).loc main_arg3)) (m ((c : Thread nD τ).loc main_arg5)) (m ((c : Thread nD τ).loc main_arg4)) :=
  (dats m 0 c).arrAt_eq_of_cover 6 (Cell.outGate (m ((c : Thread nD τ).loc main_arg0)) (m ((c : Thread nD τ).loc main_arg1)) (m ((c : Thread nD τ).loc main_arg3)) (m ((c : Thread nD τ).loc main_arg5)) (m ((c : Thread nD τ).loc main_arg4))) (fun t _ => out_flushed m c t) cover6

/-- An index of result 1 lies in point t's block exactly when each coordinate is in the block's range. -/
theorem mem_block7 (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v5_1).slice (win0_7.rect t)).set ↔ _
  rw [View.set_slice_whole, Rect.mem_set_unit]
  exact Iff.rfl

/-- Row r of result 1 is written by point r / 256: the 64 blocks of 256 rows tile the 16384 rows. -/
theorem cover7 (i : S16384x1024.Idx) :
    ∃ t : Fin cfg0.N, (cfg0.win 7).flush t = true ∧ i ∈ ((cfg0.win 7).blk t).view.set := by
  have hi0 : (i 0).val < 16384 := (i 0).isLt
  have hi1 : (i 1).val < 1024 := (i 1).isLt
  have ht : (i 0).val / 256 < cfg0.N := by rw [show cfg0.N = 64 from N_0]; omega
  obtain ⟨e00, e01, e10, e11, e20, e21, e30, e31, e40, e41, e50, e51, e60, e61, e70, e71, e80, e81⟩ := Blocks.block_index (⟨(i 0).val / 256, ht⟩ : Fin cfg0.N)
  refine ⟨⟨(i 0).val / 256, ht⟩, flush0_7 _, ?_⟩
  rw [mem_block7]
  intro a
  match a with
  | ⟨0, _⟩ => show win0_7.index ⟨(i 0).val / 256, ht⟩ (0 : Fin 2) * 256 ≤ (i 0).val ∧ (i 0).val < win0_7.index ⟨(i 0).val / 256, ht⟩ (0 : Fin 2) * 256 + 256; rw [e70]; show (i 0).val / 256 * 256 ≤ (i 0).val ∧ (i 0).val < (i 0).val / 256 * 256 + 256; omega
  | ⟨1, _⟩ => show win0_7.index ⟨(i 0).val / 256, ht⟩ (1 : Fin 2) * 1024 ≤ (i 1).val ∧ (i 1).val < win0_7.index ⟨(i 0).val / 256, ht⟩ (1 : Fin 2) * 1024 + 1024; rw [e71]; omega

/-- The second result array after the run is the new hidden state. -/
theorem hid_final (c : Dev nD) : (dats m 0 c).arrAt 7 cfg0.N = Cell.hidNext (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) :=
  (dats m 0 c).arrAt_eq_of_cover 7 (Cell.hidNext (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4))) (fun t _ => hid_flushed m c t) cover7

/-- An index of result 2 lies in point t's block exactly when each coordinate is in the block's range. -/
theorem mem_block8 (t : Fin cfg0.N) (i : S16384x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v5_2).slice (win0_8.rect t)).set ↔ _
  rw [View.set_slice_whole, Rect.mem_set_unit]
  exact Iff.rfl

/-- Row r of result 2 is written by point r / 256: the 64 blocks of 256 rows tile the 16384 rows. -/
theorem cover8 (i : S16384x1024.Idx) :
    ∃ t : Fin cfg0.N, (cfg0.win 8).flush t = true ∧ i ∈ ((cfg0.win 8).blk t).view.set := by
  have hi0 : (i 0).val < 16384 := (i 0).isLt
  have hi1 : (i 1).val < 1024 := (i 1).isLt
  have ht : (i 0).val / 256 < cfg0.N := by rw [show cfg0.N = 64 from N_0]; omega
  obtain ⟨e00, e01, e10, e11, e20, e21, e30, e31, e40, e41, e50, e51, e60, e61, e70, e71, e80, e81⟩ := Blocks.block_index (⟨(i 0).val / 256, ht⟩ : Fin cfg0.N)
  refine ⟨⟨(i 0).val / 256, ht⟩, flush0_8 _, ?_⟩
  rw [mem_block8]
  intro a
  match a with
  | ⟨0, _⟩ => show win0_8.index ⟨(i 0).val / 256, ht⟩ (0 : Fin 2) * 256 ≤ (i 0).val ∧ (i 0).val < win0_8.index ⟨(i 0).val / 256, ht⟩ (0 : Fin 2) * 256 + 256; rw [e80]; show (i 0).val / 256 * 256 ≤ (i 0).val ∧ (i 0).val < (i 0).val / 256 * 256 + 256; omega
  | ⟨1, _⟩ => show win0_8.index ⟨(i 0).val / 256, ht⟩ (1 : Fin 2) * 1024 ≤ (i 1).val ∧ (i 1).val < win0_8.index ⟨(i 0).val / 256, ht⟩ (1 : Fin 2) * 1024 + 1024; rw [e81]; omega

/-- The third result array after the run is the new cell state. -/
theorem cell_final (c : Dev nD) : (dats m 0 c).arrAt 8 cfg0.N = Cell.cellNext (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) :=
  (dats m 0 c).arrAt_eq_of_cover 8 (Cell.cellNext (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4))) (fun t _ => cell_flushed m c t) cover8

/-- The kernel's run: every weakly fair execution ends with the three results at the cell's three functions of the
    argument arrays, and the arguments unchanged. -/
theorem run : θ_run defs (onTc (τ := τ) (main (F := Ideal))) ⟨m, fun _ => 0, ρ⟩ fun r => ∀ c : Dev nD,
      r.2.mem ((c : Thread nD τ).loc main_v5_0) = Cell.outGate (m ((c : Thread nD τ).loc main_arg0)) (m ((c : Thread nD τ).loc main_arg1)) (m ((c : Thread nD τ).loc main_arg3)) (m ((c : Thread nD τ).loc main_arg5)) (m ((c : Thread nD τ).loc main_arg4))
      ∧ r.2.mem ((c : Thread nD τ).loc main_v5_1) = Cell.hidNext (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4))
      ∧ r.2.mem ((c : Thread nD τ).loc main_v5_2) = Cell.cellNext (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (out_final m c), (h c).2.1.trans (hid_final m c),
      (h c).2.2.1.trans (cell_final m c), (h c).2.2.2⟩)
    (Value.run_blocks m ρ)

end Cert.KerCell

end
-- ==== Proof.lean ====
/-
  A fused recurrent cell over 16384 batch rows: from `x`, the previous hidden state `h` and cell state `c`, four
  gate pre-activations per hidden unit (two inner products with the gate's weight rows plus a bias), then
      o = σ(pre₃),   c' = σ(pre₁) · c + σ(pre₀) · tanh(pre₂),   h' = o · tanh(c'),
  returned as (o, h', c').

  The kernel walks the rows in 64 blocks of 256, with the gate and unit axes of the weights merged into 4096 columns
  and the operands of the two products narrowed to bf16; the reference forms the products for all rows at once into a
  [row, gate, unit] array, slices the gates out, and spells σ as 1 / (1 + e^(-x)).  On the extended reals the
  narrowing is the identity and both sides are literally the same expression of the same sums in the same order
  (`Cell.lean`): no law of arithmetic is used, only the re-indexing (row 256·t + p; column g·1024 + j) and the reading
  of the literal 0x3F800000 as one.  Hence the finiteness of the inputs is never opened.

  `RefCell.lean` reads the reference's three results as the cell's functions; `KerPre.lean`, `Blocks.lean` and
  `KerCell.lean` do the same for the kernel, block by block and then for the whole arrays.  The three frames are the
  generated ones (the reference's is its run with the results dropped), and no operation was rewritten by the
  idealization, so that conjunct is trivial.
-/
import proofs.«133642_j87668872446416_2_alg».proof.Defs
import proofs.«133642_j87668872446416_2_alg».proof.Proof.Gen.Kernel
import proofs.«133642_j87668872446416_2_alg».proof.Proof.Gen.Kernel.Skeleton
import proofs.«133642_j87668872446416_2_alg».proof.Proof.Gen.Kernel.Launch
import proofs.«133642_j87668872446416_2_alg».proof.Proof.Gen.Kernel.Points
import proofs.«133642_j87668872446416_2_alg».proof.Proof.Gen.Kernel.Frame
import proofs.«133642_j87668872446416_2_alg».proof.Proof.Gen.KernelIdeal
import proofs.«133642_j87668872446416_2_alg».proof.Proof.Gen.KernelIdeal.Skeleton
import proofs.«133642_j87668872446416_2_alg».proof.Proof.Gen.KernelIdeal.Launch
import proofs.«133642_j87668872446416_2_alg».proof.Proof.Gen.KernelIdeal.Points
import proofs.«133642_j87668872446416_2_alg».proof.Proof.Gen.KernelIdeal.Frame
import proofs.«133642_j87668872446416_2_alg».proof.Proof.Gen.KernelIdeal.Value
import proofs.«133642_j87668872446416_2_alg».proof.Proof.Gen.ReferenceIdeal
import proofs.«133642_j87668872446416_2_alg».proof.Proof.Gen.ReferenceIdeal.Run
import proofs.«133642_j87668872446416_2_alg».proof.Proof.Gen.ReferenceIdeal.Read
import proofs.«133642_j87668872446416_2_alg».proof.Proof.Gen.Pre_finite_inputs
import proofs.«133642_j87668872446416_2_alg».proof.Proof.Cell
import proofs.«133642_j87668872446416_2_alg».proof.Proof.RefCell
import proofs.«133642_j87668872446416_2_alg».proof.Proof.KerCell
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says of the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- On the extended reals, from memories agreeing on the six arguments, both programs end with the output gate, the
    new hidden state and the new cell state of `Cell.lean` in their three results. -/
theorem algebraic : Cert.algebraic_KernelIdeal_ReferenceIdeal := by
  intro m ρ m' ρ' _ hagree
  refine ⟨fun c => Cell.outGate (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg4)), fun c => Cell.hidNext (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg4)), fun c => Cell.cellNext (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg4)), Cert.KerCell.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v32_eq, Cert.RefCell.out_eq, (hagree c).1, (hagree c).2.1, (hagree c).2.2.2.1,
      (hagree c).2.2.2.2.1, (hagree c).2.2.2.2.2]
  · rw [Cert.ReferenceIdeal.Read.val_main_v37_eq, Cert.RefCell.hid_eq, (hagree c).1, (hagree c).2.1, (hagree c).2.2.1,
      (hagree c).2.2.2.1, (hagree c).2.2.2.2.1, (hagree c).2.2.2.2.2]
  · rw [Cert.ReferenceIdeal.Read.val_main_v35_eq, Cert.RefCell.cell_eq, (hagree c).1, (hagree c).2.1, (hagree c).2.2.1,
      (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
